-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S1x1x2048x2048 : Shape := ⟨4, ![1, 1, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S1x1x2048x2048 32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S1x1x2048x2048 : Shape := ⟨4, ![1, 1, 2048, 2048]⟩
abbrev S32x2048x64 : Shape := ⟨3, ![32, 2048, 64]⟩
abbrev S1x2048x2048 : Shape := ⟨3, ![1, 2048, 2048]⟩
abbrev S32x2048x2048 : Shape := ⟨3, ![32, 2048, 2048]⟩
abbrev S1x256x64 : Shape := ⟨3, ![1, 256, 64]⟩
abbrev S1x2048x64 : Shape := ⟨3, ![1, 2048, 64]⟩
abbrev S1x256x2048 : Shape := ⟨3, ![1, 256, 2048]⟩
abbrev S256x64 : Shape := ⟨2, ![256, 64]⟩
abbrev S2048x64 : Shape := ⟨2, ![2048, 64]⟩
abbrev S256x2048 : Shape := ⟨2, ![256, 2048]⟩
abbrev S64x2048 : Shape := ⟨2, ![64, 2048]⟩
abbrev S256 : Shape := ⟨1, ![256]⟩
abbrev S256x1 : Shape := ⟨2, ![256, 1]⟩
abbrev S2x16x2048x2048 : Shape := ⟨4, ![2, 16, 2048, 2048]⟩

abbrev nBuf : Space → Nat
  | .hbm => 15
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S1x1x2048x2048, .i32⟩
  | .hbm, ⟨4, _⟩ => ⟨S32x2048x64, .f32⟩
  | .hbm, ⟨5, _⟩ => ⟨S32x2048x64, .bf16⟩
  | .hbm, ⟨6, _⟩ => ⟨S32x2048x64, .f32⟩
  | .hbm, ⟨7, _⟩ => ⟨S32x2048x64, .bf16⟩
  | .hbm, ⟨8, _⟩ => ⟨S32x2048x64, .f32⟩
  | .hbm, ⟨9, _⟩ => ⟨S32x2048x64, .bf16⟩
  | .hbm, ⟨10, _⟩ => ⟨S1x2048x2048, .i32⟩
  | .hbm, ⟨11, _⟩ => ⟨S32x2048x64, .f32⟩
  | .hbm, ⟨12, _⟩ => ⟨S32x2048x2048, .f32⟩
  | .hbm, ⟨13, _⟩ => ⟨S2x16x2048x64, .f32⟩
  | .hbm, ⟨14, _⟩ => ⟨S2x16x2048x2048, .f32⟩
  | .local _ .vmem, ⟨0, _⟩ => ⟨S1x256x64, .bf16⟩
  | .local _ .vmem, ⟨1, _⟩ => ⟨S1x256x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x256x2048, .i32⟩
  | .local _ .vmem, ⟨7, _⟩ => ⟨S1x256x2048, .i32⟩
  | .local _ .vmem, ⟨8, _⟩ => ⟨S1x256x64, .f32⟩
  | .local _ .vmem, ⟨9, _⟩ => ⟨S1x256x64, .f32⟩
  | .local _ .vmem, ⟨10, _⟩ => ⟨S1x256x2048, .f32⟩
  | .local _ .vmem, ⟨11, _⟩ => ⟨S1x256x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2x16x2048x64_S32x2048x64 : S2x16x2048x64.ShapeCasts S32x2048x64
  bitsLt_bf16_f32 : FTy.bits .bf16 < FTy.bits .f32
  shapeCasts_S1x1x2048x2048_S1x2048x2048 : S1x1x2048x2048.ShapeCasts S1x2048x2048
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  transposes_S2048x64_p1_0_S64x2048 : S2048x64.Transposes [1, 0] S64x2048
  reduces_S256x2048_S256 : S256x2048.Reduces [1] S256
  shapeCasts_S256_S256x1 : S256.ShapeCasts S256x1
  broadcasts_S256x1_S256x2048 : S256x1.Broadcasts S256x2048
  shapeCasts_S256x2048_S1x256x2048 : S256x2048.ShapeCasts S1x256x2048
  shapeCasts_S256x64_S1x256x64 : S256x64.ShapeCasts S1x256x64
  shapeCasts_S32x2048x64_S2x16x2048x64 : S32x2048x64.ShapeCasts S2x16x2048x64
  shapeCasts_S32x2048x2048_S2x16x2048x2048 : S32x2048x2048.ShapeCasts S2x16x2048x2048
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S32x2048x64.size a
  hwx0_0 : ∀ i : grid0.Coords, EltTy.bits .bf16 = 32 ∨ (Rect.block (s := S32x2048x64) S1x256x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .bf16 = 32 ∨ (Rect.block (s := S32x2048x64) S1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .bf16 = 32 ∨ (Rect.block (s := S32x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S1x2048x2048.size a
  hwx0_3 : ∀ i : grid0.Coords, EltTy.bits .i32 = 32 ∨ (Rect.block (s := S1x2048x2048) S1x256x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S32x2048x64.size a
  hwx0_4 : ∀ i : grid0.Coords, EltTy.bits .f32 = 32 ∨ (Rect.block (s := S32x2048x64) S1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S32x2048x2048.size a
  hwx0_5 : ∀ i : grid0.Coords, EltTy.bits .f32 = 32 ∨ (Rect.block (s := S32x2048x2048) S1x256x2048.size (cc0_transform_5 i) (hinb0_5 i)).WholeWords (EltTy.packing .f32)

variable [Facts₀]

def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v1) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S1x1x2048x2048 : Shape := ⟨4, ![1, 1, 2048, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S1x1x2048x2048, .i32⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S_, .i32⟩
  | .hbm, ⟨9, _⟩ => ⟨S1x1x2048x2048, .i32⟩
  | .hbm, ⟨10, _⟩ => ⟨S1x1x2048x2048, .i1⟩
  | .hbm, ⟨11, _⟩ => ⟨S_, .f32⟩
  | .hbm, ⟨12, _⟩ => ⟨S2x16x2048x2048, .i1⟩
  | .hbm, ⟨13, _⟩ => ⟨S2x16x2048x2048, .f32⟩
  | .hbm, ⟨14, _⟩ => ⟨S2x16x2048x2048, .f32⟩
  | .hbm, ⟨15, _⟩ => ⟨S_, .f32⟩
  | .hbm, ⟨16, _⟩ => ⟨S2x16x2048, .f32⟩
  | .hbm, ⟨17, _⟩ => ⟨S_, .f32⟩
  | .hbm, ⟨18, _⟩ => ⟨S2x16x2048, .f32⟩
  | .hbm, ⟨19, _⟩ => ⟨S2x16x2048, .f32⟩
  | .hbm, ⟨20, _⟩ => ⟨S2x16x2048x1, .f32⟩
  | .hbm, ⟨21, _⟩ => ⟨S2x16x2048x2048, .f32⟩
  | .hbm, ⟨22, _⟩ => ⟨S2x16x2048x2048, .f32⟩
  | .hbm, ⟨23, _⟩ => ⟨S2x16x2048x2048, .f32⟩
  | .hbm, ⟨24, _⟩ => ⟨S_, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S_S1x1x2048x2048 : S_.BroadcastsInDim S1x1x2048x2048 (![] : Fin 0 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LibRowMax.lean ====
import Idealize.ShloMosaic.Lib.ValueIdx
import Idealize.ShloMosaic.PureOps.Ideal.Laws

/-!
# A row's maximum, read at a row

The maximum along axis 1 of an [n, c] array at the ideal instance, where a float is an extended real and
`maximumf` is `max`: entry `r` of the result is the fold of `max`, from the value of the starting word, over the
entries `(r, k)` of row `r`, in any order.  Stated for a kernel's `vector.multi_reduction <maximumf>` and for the
host's one-operand `stablehlo.reduce` with a maximum body, so that the two meet in one expression; and the
fact that taking the maximum with the starting value once more changes nothing.
-/

noncomputable section

namespace Cert.LibRowMax

open Idealize.ShloMosaic Idealize.ShloMosaic.ValueIdx

variable {φ : FTy}

/-- The fold of `max` over a row from a starting value. -/
def foldMax {c : ℕ} (init : EReal) (s : Fin c → EReal) : EReal := (Finset.univ : Finset (Fin c)).fold max init s

/-- The fold dominates its starting value, so a further `max` with it is absorbed. -/
theorem max_foldMax {c : ℕ} (init : EReal) (s : Fin c → EReal) : max init (foldMax init s) = foldMax init s :=
  max_eq_right ((Finset.le_fold_max _).2 (Or.inl le_rfl))

/-- A kernel's lane maximum (a `vector.multi_reduction <maximumf>` over axis 1 from the neutral word) at row `r`. -/
theorem laneMax_at {n c : ℕ} (src : FVec Ideal ⟨2, ![n, c]⟩ φ) (acc : BitVec φ.bits)
    (h : (⟨2, ![n, c]⟩ : Shape).Reduces [1] ⟨1, ![n]⟩) (hφ : FKind.Formats φ) (hacc : acc = FKind.maximumf.neutral φ hφ)
    (r : Fin n) :
    multiReduction .maximumf [1] ⟨1, ![n]⟩ src acc h hφ hacc (ix1 r)
      = foldMax (Ideal.ofBits φ acc) (fun k : Fin c => src (ix2 r k)) := by
  refine (Ideal.multiReduction_maximumf_single src acc h hφ hacc (ix1 r)).trans ?_
  unfold foldMax
  refine Finset.fold_congr fun k _ => congrArg src ?_
  funext d
  apply Fin.ext
  match d with
  | ⟨0, _⟩ => rfl
  | ⟨1, _⟩ => rfl

/-- The host's maximum over the last axis of an [a, b, n, c] array (a one-operand `stablehlo.reduce` whose body is
    `maximum`), at `(i, j, q)`: the fold of `max` over row `(i, j, q)` from the initial value's one element. -/
theorem hostMax4_at {a b n c : ℕ} {u : Shape} (x : (⟨4, ![a, b, n, c]⟩ : Shape).Idx → EReal) (init : u.Idx → EReal)
    (h' : (⟨4, ![a, b, n, c]⟩ : Shape).ReducesTo [3] ⟨3, ![a, b, n]⟩)
    (h : (⟨4, ![a, b, n, c]⟩ : Shape).Reduces [3] ⟨3, ![a, b, n]⟩) (hu : 0 < u.numel)
    (i : Fin a) (j : Fin b) (q : Fin n) :
    Host.reduce (FloatOps.maximumf (F := Ideal) (φ := φ)) x init h' hu (ix3 i j q)
      = foldMax (init (Shape.Idx.first hu)) (fun k : Fin c => x (ix4 i j q k)) := by
  refine (Host.reduce_eq_fold_single (FloatOps.maximumf (F := Ideal) (φ := φ)) x init h' h hu (ix3 i j q)).trans ?_
  unfold foldMax
  refine Finset.fold_congr fun k _ => congrArg x ?_
  funext d
  apply Fin.ext
  match d with
  | ⟨0, _⟩ => rfl
  | ⟨1, _⟩ => rfl
  | ⟨2, _⟩ => rfl
  | ⟨3, _⟩ => rfl

end Cert.LibRowMax

end
-- ==== Proof.AttnSpec.lean ====
/-
  Scaled dot-product attention with a mask, on the extended reals, one row at a time.

  A row of scores `s k` is the dot product of a query with key `k`, times an eighth, replaced by a fixed large
  negative number where the mask word is zero.  The row's weights are `exp (s k - M) / ∑ j, exp (s j - M)` with `M` the
  row's maximum (a fold of `max` from the least element's word), and an output entry is the weights' sum against a
  column of values.  Dividing a score by eight and multiplying it by an eighth agree on every extended real, so the
  two spellings of the scale are one function; nothing here needs the inputs to be finite.
-/
import Idealize.ShloMosaic.PureOps.Ideal
import Idealize.ShloMosaic.PureOps.Ideal.Laws
import Idealize.ShloMosaic.Lib.ValueIdx
import proofs.«149328_j29686813949977_2_alg».proof.Proof.LibRowMax

noncomputable section

open scoped BigOperators
open Idealize.ShloMosaic Idealize.ShloMosaic.ValueIdx

namespace Cert.Attn

/-! ## The two spellings of the scale -/

/-- The scale's word denotes an eighth. -/
theorem ofBits_eighth : Ideal.ofBits .f32 0x3E000000#32 = ((1 / 8 : ℝ) : EReal) := by
  simp [Ideal.ofBits, Ideal.ieee, -EReal.coe_mul]; norm_num

/-- The divisor's word denotes eight. -/
theorem ofBits_eight : Ideal.ofBits .f32 0x41000000#32 = ((8 : ℝ) : EReal) := by
  simp [Ideal.ofBits, Ideal.ieee, -EReal.coe_mul]; norm_num

/-- Dividing by eight is multiplying by an eighth, on every extended real. -/
theorem div_eight (x : EReal) :
    Ideal.div x (Ideal.ofBits .f32 0x41000000#32) = x * Ideal.ofBits .f32 0x3E000000#32 := by
  rw [ofBits_eight, ofBits_eighth, Ideal.div_coe (by norm_num)]

/-! ## A row -/

/-- A masked, scaled score: the fill where the mask word is zero, else the dot product times an eighth. -/
def score (mk : BitVec 32) (qk : EReal) : EReal :=
  Scalar.select (IntOp.cmpi .eq mk 0#32) (Ideal.ofBits .f32 0xCE6E6B28#32) (qk * Ideal.ofBits .f32 0x3E000000#32)

/-- A row's maximum: the fold of `max` over the row from the least element's word. -/
def rowMax {n : ℕ} (s : Fin n → EReal) : EReal :=
  Cert.LibRowMax.foldMax (Ideal.ofBits .f32 0xFF800000#32) s

/-- The exponential of a score's distance below the row's maximum. -/
def expo {n : ℕ} (s : Fin n → EReal) (k : Fin n) : EReal := Ideal.exp (s k - rowMax s)

/-- A row's weights. -/
def softmax {n : ℕ} (s : Fin n → EReal) (k : Fin n) : EReal := Ideal.div (expo s k) (∑ j, expo s j)

/-- Taking the maximum with the fold's own starting value once more changes nothing. -/
theorem max_rowMax {n : ℕ} (s : Fin n → EReal) :
    max (Ideal.ofBits .f32 0xFF800000#32) (rowMax s) = rowMax s :=
  Cert.LibRowMax.max_foldMax _ s

/-! ## The arrays, with batch and head folded into one leading axis -/

/-- Row `(g, q)` of scores: query `q` of group `g` against every key of the group, under row `q` of the mask. -/
def scores3 (Q K : (⟨3, ![32, 2048, 64]⟩ : Shape).Idx → EReal) (Mk : (⟨3, ![1, 2048, 2048]⟩ : Shape).Idx → BitVec 32)
    (g : Fin 32) (q : Fin 2048) (k : Fin 2048) : EReal :=
  score (Mk (ix3 (0 : Fin 1) q k)) (∑ d : Fin 64, Q (ix3 g q d) * K (ix3 g k d))

/-- The attention weights. -/
def weights3 (Q K : (⟨3, ![32, 2048, 64]⟩ : Shape).Idx → EReal) (Mk : (⟨3, ![1, 2048, 2048]⟩ : Shape).Idx → BitVec 32) :
    (⟨3, ![32, 2048, 2048]⟩ : Shape).Idx → EReal :=
  fun i => softmax (scores3 Q K Mk (i 0) (i 1)) (i 2)

/-- The attention output: the weights against the values. -/
def output3 (Q K V : (⟨3, ![32, 2048, 64]⟩ : Shape).Idx → EReal) (Mk : (⟨3, ![1, 2048, 2048]⟩ : Shape).Idx → BitVec 32) :
    (⟨3, ![32, 2048, 64]⟩ : Shape).Idx → EReal :=
  fun i => ∑ k : Fin 2048, weights3 Q K Mk (ix3 (i 0) (i 1) k) * V (ix3 (i 0) k (i 2))

theorem weights3_at (Q K : (⟨3, ![32, 2048, 64]⟩ : Shape).Idx → EReal) (Mk : (⟨3, ![1, 2048, 2048]⟩ : Shape).Idx → BitVec 32)
    (g : Fin 32) (q k : Fin 2048) : weights3 Q K Mk (ix3 g q k) = softmax (scores3 Q K Mk g q) k := rfl

theorem output3_at (Q K V : (⟨3, ![32, 2048, 64]⟩ : Shape).Idx → EReal) (Mk : (⟨3, ![1, 2048, 2048]⟩ : Shape).Idx → BitVec 32)
    (g : Fin 32) (q : Fin 2048) (d : Fin 64) :
    output3 Q K V Mk (ix3 g q d) = ∑ k : Fin 2048, softmax (scores3 Q K Mk g q) k * V (ix3 g k d) := rfl

end Cert.Attn

end
-- ==== Proof.LibPlainDot.lean ====
/-
  The rows-times-columns matrix product `[M, K] × [K, N] → [M, N]` (the left operand contracted on its axis 1, the
  right one on its axis 0, no batch axis) read at an index, at the ideal instance where a float is an extended
  real: entry `(r, c)` is `∑ k, lhs (r, k) * rhs (k, c)`.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Proof.PlainDot

/-- The product's dimension numbers; their conditions `wf` are decided on a program's literal shapes. -/
abbrev plainDot (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section Index
variable {M K N : Nat} (wf : DotDims.WF ⟨2, ![M, K]⟩ ⟨2, ![K, N]⟩ ⟨2, ![M, N]⟩ [1] [0] [0] [1] [] [])

/-- The contraction index set is the one coordinate range `Fin K`. -/
abbrev contrEquiv : (plainDot M K N wf).contr.Idx ≃ Fin K := contrEquiv1 (plainDot M K N wf) K rfl rfl

/-- At result index `(r, c)` and contraction coordinate `k` the left operand is read at `(r, k)` … -/
theorem lhsIdx_eq (r : Fin M) (c : Fin N) (k : Fin K) :
    (plainDot M K N wf).lhsIdx (ix2 r c) ((contrEquiv wf).symm k) = ix2 r k := by
  funext a
  refine Fin.ext ?_
  match a with
  | ⟨0, _⟩ => rfl
  | ⟨1, _⟩ => rfl

/-- … and the right operand at `(k, c)`. -/
theorem rhsIdx_eq (r : Fin M) (c : Fin N) (k : Fin K) :
    (plainDot M K N wf).rhsIdx (ix2 r c) ((contrEquiv wf).symm k) = ix2 k c := by
  funext a
  refine Fin.ext ?_
  match a with
  | ⟨0, _⟩ => rfl
  | ⟨1, _⟩ => rfl

/-- THE CONTRACTION'S SUM over the contraction index set is the sum over `k : Fin K` of `lhs (r, k) * rhs (k, c)`. -/
theorem contr_sum (lhs : (⟨2, ![M, K]⟩ : Shape).Idx → EReal) (rhs : (⟨2, ![K, N]⟩ : Shape).Idx → EReal)
    (r : Fin M) (c : Fin N) :
    (∑ k : (plainDot M K N wf).contr.Idx,
        lhs ((plainDot M K N wf).lhsIdx (ix2 r c) k) * rhs ((plainDot M K N wf).rhsIdx (ix2 r c) k)) =
      ∑ k : Fin K, lhs (ix2 r k) * rhs (ix2 k c) := by
  rw [← Equiv.sum_comp (contrEquiv wf).symm]
  refine Finset.sum_congr rfl fun k _ => ?_
  rw [lhsIdx_eq, rhsIdx_eq]

end Index

section Apply
variable {M K N : Nat} {φ₁ φ₂ : FTy} (wf : DotDims.WF ⟨2, ![M, K]⟩ ⟨2, ![K, N]⟩ ⟨2, ![M, N]⟩ [1] [0] [0] [1] [] [])
  (prec : Option ContractPrecision) (lhs : FVec Ideal ⟨2, ![M, K]⟩ φ₁) (rhs : FVec Ideal ⟨2, ![K, N]⟩ φ₂)

/-- A matrix-unit product onto any accumulator, read at `(r, c)`: the accumulator there plus the sum. -/
theorem matmul_plain_apply (acc : FVec Ideal ⟨2, ![M, N]⟩ .f32) (r : Fin M) (c : Fin N) :
    FloatOps.matmul (plainDot M K N wf) prec lhs rhs acc (ix2 r c) = acc (ix2 r c) + ∑ k : Fin K, lhs (ix2 r k) * rhs (ix2 k c) := by
  rw [Ideal.matmul_apply, contr_sum]

/-- Onto the zero splat, read at `(r, c)`: the sum. -/
theorem matmul_zero_plain_apply (r : Fin M) (c : Fin N) :
    FloatOps.matmul (plainDot M K N wf) prec lhs rhs (constant ⟨2, ![M, N]⟩ .f32 0x00000000#32) (ix2 r c) =
      ∑ k : Fin K, lhs (ix2 r k) * rhs (ix2 k c) := by
  rw [Ideal.matmul_constant_zero_apply, contr_sum]

/-- The same two in the spelling a kernel body prints (`matmul d prec lhs rhs acc`). -/
theorem matmul_plain_apply' (acc : FVec Ideal ⟨2, ![M, N]⟩ .f32) (r : Fin M) (c : Fin N) :
    matmul (F := Ideal) (plainDot M K N wf) prec lhs rhs acc (ix2 r c) = acc (ix2 r c) + ∑ k : Fin K, lhs (ix2 r k) * rhs (ix2 k c) :=
  matmul_plain_apply wf prec lhs rhs acc r c
theorem matmul_zero_plain_apply' (r : Fin M) (c : Fin N) :
    matmul (F := Ideal) (plainDot M K N wf) prec lhs rhs (constant ⟨2, ![M, N]⟩ .f32 0x00000000#32) (ix2 r c) =
      ∑ k : Fin K, lhs (ix2 r k) * rhs (ix2 k c) :=
  matmul_zero_plain_apply wf prec lhs rhs r c

/-- The host's product at any schedule key, read at `(r, c)`: the sum. -/
theorem dotGeneralAt_plain_apply (sched : HostSchedule) (r : Fin M) (c : Fin N) :
    FloatOps.dotGeneral (plainDot M K N wf) prec sched lhs rhs (ix2 r c) = ∑ k : Fin K, lhs (ix2 r k) * rhs (ix2 k c) := by
  rw [Ideal.dotGeneral_apply, contr_sum]

/-- The host's product as a reference prints it, read at `(r, c)`: the sum. -/
theorem dotGeneral_plain_apply (r : Fin M) (c : Fin N) :
    Host.dotGeneral (F := Ideal) (plainDot M K N wf) prec lhs rhs (ix2 r c) = ∑ k : Fin K, lhs (ix2 r k) * rhs (ix2 k c) :=
  dotGeneralAt_plain_apply wf prec lhs rhs .single r c

end Apply

/-- A program's own record with the same lists is this one (the check that the lemmas rewrite a printed product). -/
example (d : DotDims ⟨2, ![7, 5]⟩ ⟨2, ![5, 3]⟩ ⟨2, ![7, 3]⟩)
    (hd : d = { lhsContracting := [1], rhsContracting := [0], lhsNonContracting := [0], rhsNonContracting := [1], lhsBatch := [], rhsBatch := [] })
    (l : FVec Ideal ⟨2, ![7, 5]⟩ .bf16) (rr : FVec Ideal ⟨2, ![5, 3]⟩ .bf16) (r : Fin 7) (c : Fin 3) :
    matmul (F := Ideal) d none l rr (constant ⟨2, ![7, 3]⟩ .f32 0x00000000#32) (ix2 r c) = ∑ k : Fin 5, l (ix2 r k) * rr (ix2 k c) := by
  subst hd
  rw [matmul_zero_plain_apply' (by decide)]

end Cert.Proof.PlainDot

end
-- ==== Proof.LibKeepdims.lean ====
import Idealize.ShloMosaic.Lib.ValueIdx
import Idealize.ShloMosaic.Lib.Pipeline.Value
import Idealize.ShloMosaic.PureOps.Ideal.Laws

/-!
# A row reduction that keeps its axis, read at an index

What `jnp.sum(v, axis=-1, keepdims=True)` and its use against a matrix become inside a kernel body, each read at an
index written by its coordinates:

* the lane sum of an [n, c] array into [n] at the ideal instance: entry `r` is `∑ k, src (r, k)`;
* a vector [a] recast as a column [a, 1]: entry `(p, 0)` is entry `p`;
* a column [a, 1] broadcast to [a, b]: entry `(p, q)` is entry `(p, 0)`;
* a matrix product contracting BOTH operands on their axis 1 ([m, k] times [n, k] transposed) into the zero
  accumulator at the ideal instance: entry `(r, c)` is `∑ k, lhs (r, k) * rhs (c, k)`, for a kernel's `tpu.matmul`
  and for the host's `dot_general`.

The layout lemmas do not depend on what the entries are.
-/

noncomputable section

namespace Cert.LibKeepdims

open Idealize.ShloMosaic Idealize.ShloMosaic.ValueIdx
open scoped BigOperators

section Layout
variable {α : Type}

/-- A vector recast as a column: the same numbers in the same order. -/
theorem columnOfVector_cast_at {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) :=
  shapeCast_apply v h (ix2 p z) (ix1 p) (by
    have hz : z.val = 0 := by omega
    rw [Shape.rowMajor_val_two, Shape.rowMajor_val_one]
    show p.val = p.val * 1 + z.val
    omega)

/-- A column broadcast along the rows' direction: every entry of row `p` is the column's entry `p`. -/
theorem broadcastTo_a1_ab_at {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

section Sums
variable {φ : FTy}

/-- The lane sum (a `vector.multi_reduction <add>` over axis 1 from the neutral word) at row `r`. -/
theorem laneSum_at {n c : ℕ} (src : FVec Ideal ⟨2, ![n, c]⟩ φ) (acc : BitVec φ.bits)
    (h : (⟨2, ![n, c]⟩ : Shape).Reduces [1] ⟨1, ![n]⟩) (hφ : FKind.Formats φ) (hacc : acc = FKind.add.neutral φ hφ)
    (r : Fin n) :
    multiReduction .add [1] ⟨1, ![n]⟩ src acc h hφ hacc (ix1 r) = ∑ k : Fin c, src (ix2 r k) := by
  refine (Ideal.multiReduction_add_single src acc h hφ hacc (ix1 r)).trans ?_
  refine Finset.sum_congr rfl fun k _ => congrArg src ?_
  funext d
  apply Fin.ext
  match d with
  | ⟨0, _⟩ => rfl
  | ⟨1, _⟩ => rfl

/-- The dimension numbers of a product contracting both operands on their axis 1 (`A · Bᵀ`); their conditions
    `wf` are decided on a program's literal shapes. -/
abbrev abtDot (M K N : ℕ) (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : ℕ} (wf : DotDims.WF ⟨2, ![M, K]⟩ ⟨2, ![N, K]⟩ ⟨2, ![M, N]⟩ [1] [1] [0] [0] [] [])

/-- At result index `(r, c)` and contraction coordinate `k` the left operand is read at `(r, k)` … -/
theorem abt_lhsIdx (r : Fin M) (c : Fin N) (k : Fin K) :
    (abtDot M K N wf).lhsIdx (ix2 r c) ((contrEquiv1 (abtDot M K N wf) K rfl rfl).symm k) = ix2 r k := by
  funext a
  refine Fin.ext ?_
  match a with
  | ⟨0, _⟩ => rfl
  | ⟨1, _⟩ => rfl

/-- … and the right operand at `(c, k)`. -/
theorem abt_rhsIdx (r : Fin M) (c : Fin N) (k : Fin K) :
    (abtDot M K N wf).rhsIdx (ix2 r c) ((contrEquiv1 (abtDot M K N wf) K rfl rfl).symm k) = ix2 c k := by
  funext a
  refine Fin.ext ?_
  match a with
  | ⟨0, _⟩ => rfl
  | ⟨1, _⟩ => rfl

/-- The contraction's sum over its index set is the sum over `k : Fin K` of `lhs (r, k) * rhs (c, k)`. -/
theorem abt_contr_sum (lhs : (⟨2, ![M, K]⟩ : Shape).Idx → EReal) (rhs : (⟨2, ![N, K]⟩ : Shape).Idx → EReal)
    (r : Fin M) (c : Fin N) :
    (∑ k : (abtDot M K N wf).contr.Idx,
        lhs ((abtDot M K N wf).lhsIdx (ix2 r c) k) * rhs ((abtDot M K N wf).rhsIdx (ix2 r c) k)) =
      ∑ k : Fin K, lhs (ix2 r k) * rhs (ix2 c k) := by
  rw [← Equiv.sum_comp (contrEquiv1 (abtDot M K N wf) K rfl rfl).symm]
  refine Finset.sum_congr rfl fun k _ => ?_
  rw [abt_lhsIdx, abt_rhsIdx]

/-- A kernel's `tpu.matmul` of this form into the zero splat, read at `(r, c)`. -/
theorem matmul_abt_zero_at {φ₁ φ₂ : FTy} (prec : Option ContractPrecision) (lhs : FVec Ideal ⟨2, ![M, K]⟩ φ₁)
    (rhs : FVec Ideal ⟨2, ![N, K]⟩ φ₂) (r : Fin M) (c : Fin N) :
    matmul (F := Ideal) (abtDot M K N wf) prec lhs rhs (constant ⟨2, ![M, N]⟩ .f32 0x00000000#32) (ix2 r c) =
      ∑ k : Fin K, lhs (ix2 r k) * rhs (ix2 c k) := by
  refine (Ideal.matmul_constant_zero_apply (abtDot M K N wf) prec lhs rhs (ix2 r c)).trans ?_
  exact abt_contr_sum wf lhs rhs r c

/-- The host's `dot_general` of this form, read at `(r, c)`. -/
theorem dotGeneral_abt_at {φ₁ φ₂ : FTy} (prec : Option ContractPrecision) (lhs : FVec Ideal ⟨2, ![M, K]⟩ φ₁)
    (rhs : FVec Ideal ⟨2, ![N, K]⟩ φ₂) (r : Fin M) (c : Fin N) :
    Host.dotGeneral (F := Ideal) (abtDot M K N wf) prec lhs rhs (ix2 r c) = ∑ k : Fin K, lhs (ix2 r k) * rhs (ix2 c k) := by
  refine (Ideal.dotGeneral_apply (abtDot M K N wf) prec .single lhs rhs (ix2 r c)).trans ?_
  exact abt_contr_sum wf lhs rhs r c

end Sums

end Cert.LibKeepdims

end
-- ==== Proof.KernelRow.lean ====
/-
  One grid point of the kernel, read at an entry.

  The body holds a block of 256 queries `x0`, one group's 2048 keys `x1` and values `x2`, and 256 rows of the mask
  `x3`.  Entry `(r, c)` of its score matrix is the masked, scaled dot product of query `r` with key `c` (the keys
  enter transposed, so the product contracts both on the feature axis); each row is then turned into weights by
  the row's maximum, the exponentials of the distances below it, and their sum; the weights are stored, and
  their product with the values is stored.  Every step is read at an index written by its coordinates.
-/
import proofs.«149328_j29686813949977_2_alg».proof.Proof.Gen.KernelIdeal.Skeleton
import proofs.«149328_j29686813949977_2_alg».proof.Proof.AttnSpec
import proofs.«149328_j29686813949977_2_alg».proof.Proof.LibPlainDot
import proofs.«149328_j29686813949977_2_alg».proof.Proof.LibKeepdims
import proofs.«149328_j29686813949977_2_alg».proof.Proof.LibRowMax
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Row

open Cert.KernelIdeal Cert.KernelIdeal.Facts₀

/-! ## The score matrix of a block -/

/-- The mask rows of the block as a matrix. -/
def maskVec (v6 : Vec Ideal S1x256x2048 .i32) : IVec S256x2048 32 :=
  shapeCast S256x2048 v6 shapeCasts_S1x256x2048_S256x2048

/-- Queries times transposed keys, into the zero accumulator. -/
def qkVec (v0 : Vec Ideal S1x256x64 .bf16) (v2 : Vec Ideal S1x2048x64 .bf16) : FVec Ideal S256x2048 .f32 :=
  have v1 : FVec Ideal S256x64 .bf16 := shapeCast S256x64 v0 shapeCasts_S1x256x64_S256x64
  have v3 : FVec Ideal S2048x64 .bf16 := shapeCast S2048x64 v2 shapeCasts_S1x2048x64_S2048x64
  have v8 : FVec Ideal S64x2048 .bf16 := transpose S64x2048 [1, 0] v3 transposes_S2048x64_p1_0_S64x2048
  matmul dot_S256x64_S64x2048_S256x2048_1_0_0_1_n_n none v1 v8 (constant S256x2048 .f32 0x00000000#32)

/-- The masked, scaled scores. -/
def scoreVec (v0 : Vec Ideal S1x256x64 .bf16) (v2 : Vec Ideal S1x2048x64 .bf16) (v6 : Vec Ideal S1x256x2048 .i32) :
    FVec Ideal S256x2048 .f32 :=
  select (cmpi .eq (maskVec v6) (broadcast S256x2048 0#32)) (broadcast S256x2048 (Scalar.ofBits .f32 0xCE6E6B28#32))
    (mulf (qkVec v0 v2) (broadcast S256x2048 (Scalar.ofBits .f32 0x3E000000#32)))

theorem maskVec_at (v6 : Vec Ideal S1x256x2048 .i32) (r : Fin 256) (c : Fin 2048) :
    maskVec v6 (ix2 r c) = v6 (ix3 (0 : Fin 1) r c) :=
  shapeCast_1ab_ab_apply v6 shapeCasts_S1x256x2048_S256x2048 r c

theorem qkVec_at (v0 : Vec Ideal S1x256x64 .bf16) (v2 : Vec Ideal S1x2048x64 .bf16) (r : Fin 256) (c : Fin 2048) :
    qkVec v0 v2 (ix2 r c) = ∑ d : Fin 64, v0 (ix3 (0 : Fin 1) r d) * v2 (ix3 (0 : Fin 1) c d) := by
  unfold qkVec
  dsimp only
  refine (Cert.Proof.PlainDot.matmul_zero_plain_apply' dot_S256x64_S64x2048_S256x2048_1_0_0_1_n_n_wf none _ _ r c).trans ?_
  refine Finset.sum_congr rfl fun d _ => ?_
  refine congrArg₂ (· * ·) (shapeCast_1ab_ab_apply v0 shapeCasts_S1x256x64_S256x64 r d) ?_
  refine (transpose_ix2_apply _ transposes_S2048x64_p1_0_S64x2048 d c).trans ?_
  exact shapeCast_1ab_ab_apply v2 shapeCasts_S1x2048x64_S2048x64 c d

theorem scoreVec_at (v0 : Vec Ideal S1x256x64 .bf16) (v2 : Vec Ideal S1x2048x64 .bf16) (v6 : Vec Ideal S1x256x2048 .i32)
    (r : Fin 256) (c : Fin 2048) :
    scoreVec v0 v2 v6 (ix2 r c)
      = Attn.score (v6 (ix3 (0 : Fin 1) r c)) (∑ d : Fin 64, v0 (ix3 (0 : Fin 1) r d) * v2 (ix3 (0 : Fin 1) c d)) := by
  show Scalar.select (IntOp.cmpi .eq (maskVec v6 (ix2 r c)) 0#32) (Ideal.ofBits .f32 0xCE6E6B28#32)
      (qkVec v0 v2 (ix2 r c) * Ideal.ofBits .f32 0x3E000000#32) = _
  rw [maskVec_at, qkVec_at]
  rfl

/-! ## A matrix's rows turned into weights -/

/-- Each row's maximum, spread along the row. -/
def maxCol (V : FVec Ideal S256x2048 .f32) : FVec Ideal S256x2048 .f32 :=
  broadcastTo S256x2048
    (shapeCast S256x1 (multiReduction .maximumf [1] S256 V 0xFF800000#32 reduces_S256x2048_S256 (.inl rfl) rfl) shapeCasts_S256_S256x1)
    broadcasts_S256x1_S256x2048

/-- The exponentials of the distances below the row's maximum. -/
def expVec (V : FVec Ideal S256x2048 .f32) : FVec Ideal S256x2048 .f32 := exp (subf V (maxCol V))

/-- Each row's sum, spread along the row. -/
def sumCol (E : FVec Ideal S256x2048 .f32) : FVec Ideal S256x2048 .f32 :=
  broadcastTo S256x2048
    (shapeCast S256x1 (multiReduction .add [1] S256 E 0x00000000#32 reduces_S256x2048_S256 (.inl rfl) rfl) shapeCasts_S256_S256x1)
    broadcasts_S256x1_S256x2048

/-- The rows' weights. -/
def softmaxVec (V : FVec Ideal S256x2048 .f32) : FVec Ideal S256x2048 .f32 := divf (expVec V) (sumCol (expVec V))

theorem maxCol_at (V : FVec Ideal S256x2048 .f32) (r : Fin 256) (c : Fin 2048) :
    maxCol V (ix2 r c) = Attn.rowMax (fun k : Fin 2048 => V (ix2 r k)) := by
  unfold maxCol
  refine (Cert.LibKeepdims.broadcastTo_a1_ab_at _ broadcasts_S256x1_S256x2048 r c).trans ?_
  refine (Cert.LibKeepdims.columnOfVector_cast_at _ shapeCasts_S256_S256x1 r 0).trans ?_
  exact Cert.LibRowMax.laneMax_at V 0xFF800000#32 reduces_S256x2048_S256 (.inl rfl) rfl r

theorem sumCol_at (E : FVec Ideal S256x2048 .f32) (r : Fin 256) (c : Fin 2048) :
    sumCol E (ix2 r c) = ∑ k : Fin 2048, E (ix2 r k) := by
  unfold sumCol
  refine (Cert.LibKeepdims.broadcastTo_a1_ab_at _ broadcasts_S256x1_S256x2048 r c).trans ?_
  refine (Cert.LibKeepdims.columnOfVector_cast_at _ shapeCasts_S256_S256x1 r 0).trans ?_
  exact Cert.LibKeepdims.laneSum_at E 0x00000000#32 reduces_S256x2048_S256 (.inl rfl) rfl r

theorem expVec_at (V : FVec Ideal S256x2048 .f32) (r : Fin 256) (k : Fin 2048) :
    expVec V (ix2 r k) = Attn.expo (fun k : Fin 2048 => V (ix2 r k)) k := by
  show Ideal.exp (V (ix2 r k) - maxCol V (ix2 r k)) = _
  rw [maxCol_at]
  rfl

theorem softmaxVec_at (V : FVec Ideal S256x2048 .f32) (r : Fin 256) (c : Fin 2048) :
    softmaxVec V (ix2 r c) = Attn.softmax (fun k : Fin 2048 => V (ix2 r k)) c := by
  show Ideal.div (expVec V (ix2 r c)) (sumCol (expVec V) (ix2 r c)) = _
  rw [sumCol_at, expVec_at]
  unfold Attn.softmax
  exact congrArg _ (Finset.sum_congr rfl fun k _ => expVec_at V r k)

/-! ## The body's payloads -/

set_option maxRecDepth 65536 in
/-- The weights the body computes are the rows' weights of the block's scores. -/
theorem pay2_eq (v0 : Vec Ideal S1x256x64 .bf16) (v2 : Vec Ideal S1x2048x64 .bf16) (v6 : Vec Ideal S1x256x2048 .i32) :
    Gen.k0_pay2 (F := Ideal) v0 v2 v6 = softmaxVec (scoreVec v0 v2 v6) := rfl

/-- The block's row `r` of scores, from the block's contents. -/
def blockRow (v0 : Vec Ideal S1x256x64 .bf16) (v2 : Vec Ideal S1x2048x64 .bf16) (v6 : Vec Ideal S1x256x2048 .i32)
    (r : Fin 256) (k : Fin 2048) : EReal :=
  Attn.score (v6 (ix3 (0 : Fin 1) r k)) (∑ d : Fin 64, v0 (ix3 (0 : Fin 1) r d) * v2 (ix3 (0 : Fin 1) k d))

theorem pay2_at (v0 : Vec Ideal S1x256x64 .bf16) (v2 : Vec Ideal S1x2048x64 .bf16) (v6 : Vec Ideal S1x256x2048 .i32)
    (r : Fin 256) (c : Fin 2048) :
    Gen.k0_pay2 (F := Ideal) v0 v2 v6 (ix2 r c) = Attn.softmax (blockRow v0 v2 v6 r) c := by
  rw [pay2_eq]
  refine (softmaxVec_at _ r c).trans ?_
  exact congrArg (fun s => Attn.softmax s c) (funext fun k => scoreVec_at v0 v2 v6 r k)

/-- What is stored into the weights' block. -/
theorem pay3_at (v0 : Vec Ideal S1x256x64 .bf16) (v2 : Vec Ideal S1x2048x64 .bf16) (v6 : Vec Ideal S1x256x2048 .i32)
    (u : Fin 1) (r : Fin 256) (c : Fin 2048) :
    Gen.k0_pay3 (F := Ideal) v0 v2 v6 (ix3 u r c) = Attn.softmax (blockRow v0 v2 v6 r) c :=
  (shapeCast_ab_1ab_apply _ shapeCasts_S256x2048_S1x256x2048 u r c).trans (pay2_at v0 v2 v6 r c)

/-- The weights against the values, into the zero accumulator. -/
theorem pay4_at (v0 : Vec Ideal S1x256x64 .bf16) (v2 v4 : Vec Ideal S1x2048x64 .bf16) (v6 : Vec Ideal S1x256x2048 .i32)
    (r : Fin 256) (d : Fin 64) :
    Gen.k0_pay4 (F := Ideal) v0 v2 v4 v6 (ix2 r d)
      = ∑ k : Fin 2048, Attn.softmax (blockRow v0 v2 v6 r) k * v4 (ix3 (0 : Fin 1) k d) := by
  unfold Gen.k0_pay4
  refine (Cert.Proof.PlainDot.matmul_zero_plain_apply' dot_S256x2048_S2048x64_S256x64_1_0_0_1_n_n_wf none _ _ r d).trans ?_
  refine Finset.sum_congr rfl fun k _ => ?_
  exact congrArg₂ (· * ·) (pay2_at v0 v2 v6 r k) (shapeCast_1ab_ab_apply v4 shapeCasts_S1x2048x64_S2048x64 k d)

/-- What is stored into the output's block. -/
theorem pay1_at (v : FVec Ideal S256x64 .f32) (u : Fin 1) (r : Fin 256) (d : Fin 64) :
    Gen.k0_pay1 (F := Ideal) v (ix3 u r d) = v (ix2 r d) :=
  shapeCast_ab_1ab_apply v shapeCasts_S256x64_S1x256x64 u r d

end Cert.KernelIdeal.Row

end
-- ==== Proof.KernelBlocks.lean ====
/-
  From the grid's blocks to the whole arrays.

  The grid has 8 × 32 points: point `t` works on query tile `qi` (256 rows) of group `g`.  It reads rows
  `qi * 256 …` of the group's queries, all of the group's keys and values, and rows `qi * 256 …` of the shared mask,
  and writes rows `qi * 256 …` of the group's weights and output.  A row of weights depends only on that row's
  query, the group's keys and that row of the mask, so what a point writes is the restriction of one whole-array
  function to its block; the blocks tile the two result arrays, so after the run each holds that function.
-/
import proofs.«149328_j29686813949977_2_alg».proof.Proof.Gen.KernelIdeal.Frame
import proofs.«149328_j29686813949977_2_alg».proof.Proof.KernelRow
import Idealize.ShloMosaic.Lib.Pipeline.Value

set_option maxRecDepth 16384

noncomputable section

open scoped BigOperators
open Idealize.ShloMosaic Idealize.ShloMosaic.TcCoe Idealize.ShloMosaic.ValueIdx Idealize.SL.Sem

namespace Cert.KernelIdeal.Blocks

open Cert.KernelIdeal Cert.KernelIdeal.Gen Cert.Attn

variable (m : (ℓ : Loc nD τ sig) → Buf (Elt Ideal) ℓ)

theorem hz3 : (![0, 0, 0] : Fin 3 → Nat) = fun _ => 0 := funext fun a => by fin_cases a <;> rfl

/-! ## One point's blocks, over the block contents as variables -/

section Point
variable (x0 : Vec Ideal S1x256x64 .bf16) (x1 x2 : Vec Ideal S1x2048x64 .bf16) (x3 : Vec Ideal S1x256x2048 .i32)
  (Q K Vl : (⟨3, ![32, 2048, 64]⟩ : Shape).Idx → EReal) (Mk : (⟨3, ![1, 2048, 2048]⟩ : Shape).Idx → BitVec 32)
  (g : Fin 32) (q0 : ℕ) (hq0 : q0 + 256 ≤ 2048)
  (h0 : ∀ (r : Fin 256) (d : Fin 64), x0 (ix3 (0 : Fin 1) r d) = Q (ix3 g ⟨q0 + r.val, by omega⟩ d))
  (h1 : ∀ (k : Fin 2048) (d : Fin 64), x1 (ix3 (0 : Fin 1) k d) = K (ix3 g k d))
  (h2 : ∀ (k : Fin 2048) (d : Fin 64), x2 (ix3 (0 : Fin 1) k d) = Vl (ix3 g k d))
  (h3 : ∀ (r : Fin 256) (k : Fin 2048), x3 (ix3 (0 : Fin 1) r k) = Mk (ix3 (0 : Fin 1) ⟨q0 + r.val, by omega⟩ k))

include h0 h1 h3 in
/-- A block's row of scores is the group's row of scores at the block's offset. -/
theorem blockRow_eq (r : Fin 256) :
    Row.blockRow x0 x1 x3 r = scores3 Q K Mk g ⟨q0 + r.val, by omega⟩ := by
  funext k
  unfold Row.blockRow scores3
  rw [h3]
  refine congrArg _ (Finset.sum_congr rfl fun d _ => ?_)
  rw [h0, h1]

include h0 h1 h3 in
/-- The stored block of weights is the whole array's block. -/
theorem weightsBlock_at (y : S1x256x2048.Idx) (i : (⟨3, ![32, 2048, 2048]⟩ : Shape).Idx)
    (hi0 : (i 0).val = g.val) (hi1 : (i 1).val = q0 + (y 1).val) (hi2 : (i 2).val = (y 2).val) :
    k0_pay3 (F := Ideal) x0 x1 x3 y = weights3 Q K Mk i := by
  obtain ⟨u, r, c, rfl⟩ : ∃ (u : Fin 1) (r : Fin 256) (c : Fin 2048), y = ix3 u r c := ⟨y 0, y 1, y 2, eq_ix3 y⟩
  have hi : i = ix3 g ⟨q0 + r.val, by omega⟩ c := funext fun a => Fin.ext (by
    match a with
    | ⟨0, _⟩ => exact hi0
    | ⟨1, _⟩ => exact hi1
    | ⟨2, _⟩ => exact hi2)
  rw [hi, Row.pay3_at, weights3_at, blockRow_eq x0 x1 x3 Q K Mk g q0 hq0 h0 h1 h3 r]

include h0 h1 h2 h3 in
/-- The stored block of the output is the whole array's block. -/
theorem outputBlock_at (y : S1x256x64.Idx) (i : (⟨3, ![32, 2048, 64]⟩ : Shape).Idx)
    (hi0 : (i 0).val = g.val) (hi1 : (i 1).val = q0 + (y 1).val) (hi2 : (i 2).val = (y 2).val) :
    k0_pay1 (F := Ideal) (k0_pay4 (F := Ideal) x0 x1 x2 x3) y = output3 Q K Vl Mk i := by
  obtain ⟨u, r, d, rfl⟩ : ∃ (u : Fin 1) (r : Fin 256) (d : Fin 64), y = ix3 u r d := ⟨y 0, y 1, y 2, eq_ix3 y⟩
  have hi : i = ix3 g ⟨q0 + r.val, by omega⟩ d := funext fun a => Fin.ext (by
    match a with
    | ⟨0, _⟩ => exact hi0
    | ⟨1, _⟩ => exact hi1
    | ⟨2, _⟩ => exact hi2)
  rw [hi, Row.pay1_at, Row.pay4_at, output3_at, blockRow_eq x0 x1 x3 Q K Mk g q0 hq0 h0 h1 h3 r]
  exact Finset.sum_congr rfl fun k _ => by rw [h2]

end Point

/-! ## The index maps, decided once over the grid -/

/-- Every window's block indices in terms of the weights window's: group on axis 0, query tile on axis 1. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = 0 ∧ win0_3.index t (1 : Fin 3) = win0_5.index t (1 : Fin 3) ∧ win0_3.index t (2 : Fin 3) = 0
    ∧ win0_4.index t (0 : Fin 3) = win0_5.index t (0 : Fin 3) ∧ win0_4.index t (1 : Fin 3) = win0_5.index t (1 : Fin 3)
    ∧ win0_4.index t (2 : Fin 3) = 0
    ∧ win0_5.index t (0 : Fin 3) ≤ 31 ∧ win0_5.index t (1 : Fin 3) ≤ 7 ∧ win0_5.index t (2 : Fin 3) = 0 :=
  (by decide +kernel : ∀ t : Fin grid0.N, _)

/-- Every (group, query tile) is some point's. -/
theorem idx_onto : ∀ (g : Fin 32) (qi : Fin 8), ∃ t : Fin cfg0.N, win0_5.index t = ![g.val, qi.val, 0] :=
  (by decide +kernel : ∀ (g : Fin 32) (qi : Fin 8), ∃ t : Fin grid0.N, win0_5.index t = ![g.val, qi.val, 0])

/-! ## What a point reads -/

section Reads
variable (c : Dev nD) (t : Fin cfg0.N)

/-- The group of point `t`. -/
def grpOf : Fin 32 := ⟨win0_5.index t (0 : Fin 3), by have := (idx_facts t).2.2.2.2.2.2.2.2.2.2.2.2.2.2.2.1; omega⟩

theorem tile_le : win0_5.index t (1 : Fin 3) * 256 + 256 ≤ 2048 := by
  have := (idx_facts t).2.2.2.2.2.2.2.2.2.2.2.2.2.2.2.2.1; omega

theorem read_q (r : Fin 256) (d : Fin 64) :
    iblk m c 0 t (ix3 (0 : Fin 1) r d)
      = V m c main_v1 (ix3 (grpOf t) ⟨win0_5.index t (1 : Fin 3) * 256 + r.val, by have := tile_le t; omega⟩ d) := by
  obtain ⟨e00, e01, e02, -⟩ := idx_facts t
  show V m c main_v1 (((cfg0.win 0).blk t).view.emb (ix3 (0 : Fin 1) r d)) = _
  refine congrArg _ (funext fun a => Fin.ext ?_)
  match a with
  | ⟨0, _⟩ => show win0_0.index t (0 : Fin 3) * 1 + 1 * 0 = win0_5.index t (0 : Fin 3); omega
  | ⟨1, _⟩ => show win0_0.index t (1 : Fin 3) * 256 + 1 * r.val = win0_5.index t (1 : Fin 3) * 256 + r.val; omega
  | ⟨2, _⟩ => show win0_0.index t (2 : Fin 3) * 64 + 1 * d.val = d.val; omega

theorem read_k (k : Fin 2048) (d : Fin 64) :
    iblk m c 1 t (ix3 (0 : Fin 1) k d) = V m c main_v3 (ix3 (grpOf t) k d) := by
  obtain ⟨-, -, -, e10, e11, e12, -⟩ := idx_facts t
  show V m c main_v3 (((cfg0.win 1).blk t).view.emb (ix3 (0 : Fin 1) k d)) = _
  refine congrArg _ (funext fun a => Fin.ext ?_)
  match a with
  | ⟨0, _⟩ => show win0_1.index t (0 : Fin 3) * 1 + 1 * 0 = win0_5.index t (0 : Fin 3); omega
  | ⟨1, _⟩ => show win0_1.index t (1 : Fin 3) * 2048 + 1 * k.val = k.val; omega
  | ⟨2, _⟩ => show win0_1.index t (2 : Fin 3) * 64 + 1 * d.val = d.val; omega

theorem read_v (k : Fin 2048) (d : Fin 64) :
    iblk m c 2 t (ix3 (0 : Fin 1) k d) = V m c main_v5 (ix3 (grpOf t) k d) := by
  obtain ⟨-, -, -, -, -, -, e20, e21, e22, -⟩ := idx_facts t
  show V m c main_v5 (((cfg0.win 2).blk t).view.emb (ix3 (0 : Fin 1) k d)) = _
  refine congrArg _ (funext fun a => Fin.ext ?_)
  match a with
  | ⟨0, _⟩ => show win0_2.index t (0 : Fin 3) * 1 + 1 * 0 = win0_5.index t (0 : Fin 3); omega
  | ⟨1, _⟩ => show win0_2.index t (1 : Fin 3) * 2048 + 1 * k.val = k.val; omega
  | ⟨2, _⟩ => show win0_2.index t (2 : Fin 3) * 64 + 1 * d.val = d.val; omega

theorem read_mask (r : Fin 256) (k : Fin 2048) :
    iblk m c 3 t (ix3 (0 : Fin 1) r k)
      = V m c main_v6 (ix3 (0 : Fin 1) ⟨win0_5.index t (1 : Fin 3) * 256 + r.val, by have := tile_le t; omega⟩ k) := by
  obtain ⟨-, -, -, -, -, -, -, -, -, e30, e31, e32, -⟩ := idx_facts t
  show V m c main_v6 (((cfg0.win 3).blk t).view.emb (ix3 (0 : Fin 1) r k)) = _
  refine congrArg _ (funext fun a => Fin.ext ?_)
  match a with
  | ⟨0, _⟩ => show win0_3.index t (0 : Fin 3) * 1 + 1 * 0 = 0; omega
  | ⟨1, _⟩ => show win0_3.index t (1 : Fin 3) * 256 + 1 * r.val = win0_5.index t (1 : Fin 3) * 256 + r.val; omega
  | ⟨2, _⟩ => show win0_3.index t (2 : Fin 3) * 2048 + 1 * k.val = k.val; omega

end Reads

/-! ## What a point writes back -/

/-- Point `t` writes back block `t` of the weights. -/
theorem flushed5_eq (c : Dev nD) (t : Fin cfg0.N) :
    (dats m 0 c).flushed 5 t
      = ((cfg0.win 5).blk t).view.read (Elt Ideal) (weights3 (V m c main_v1) (V m c main_v3) (V m c main_v6)) := by
  show (cfg0.win 5).cut (grid0.coords t) ((dats m 0 c).after 5 t) = _
  rw [after0_5]
  unfold out0_5
  rw [View.canon_unit_zero hz3]
  simp only [View.ld_unit_zero (S := S1x256x64) hz3, View.ld_unit_zero (S := S1x2048x64) hz3,
    View.ld_unit_zero (S := S1x256x2048) hz3]
  funext y
  show k0_pay3 (F := Ideal) (iblk m c 0 t) (iblk m c 1 t) (iblk m c 3 t) y
      = weights3 (V m c main_v1) (V m c main_v3) (V m c main_v6) (((cfg0.win 5).blk t).view.emb y)
  have hy0 : (y 0).val < 1 := (y 0).isLt
  refine weightsBlock_at (iblk m c 0 t) (iblk m c 1 t) (iblk m c 3 t) (V m c main_v1) (V m c main_v3) (V m c main_v6)
    (grpOf t) (win0_5.index t (1 : Fin 3) * 256) (tile_le t) (read_q m c t) (read_k m c t) (read_mask m c t) y
    (((cfg0.win 5).blk t).view.emb y) ?_ ?_ ?_
  · show win0_5.index t (0 : Fin 3) * 1 + 1 * (y 0).val = win0_5.index t (0 : Fin 3); omega
  · show win0_5.index t (1 : Fin 3) * 256 + 1 * (y 1).val = win0_5.index t (1 : Fin 3) * 256 + (y 1).val; omega
  · show win0_5.index t (2 : Fin 3) * 2048 + 1 * (y 2).val = (y 2).val
    have := (idx_facts t).2.2.2.2.2.2.2.2.2.2.2.2.2.2.2.2.2; omega

/-- Point `t` writes back block `t` of the output. -/
theorem flushed4_eq (c : Dev nD) (t : Fin cfg0.N) :
    (dats m 0 c).flushed 4 t
      = ((cfg0.win 4).blk t).view.read (Elt Ideal)
          (output3 (V m c main_v1) (V m c main_v3) (V m c main_v5) (V m c main_v6)) := by
  show (cfg0.win 4).cut (grid0.coords t) ((dats m 0 c).after 4 t) = _
  rw [after0_4]
  unfold out0_4
  rw [View.canon_unit_zero hz3]
  simp only [View.ld_unit_zero (S := S1x256x64) hz3, View.ld_unit_zero (S := S1x2048x64) hz3,
    View.ld_unit_zero (S := S1x256x2048) hz3]
  funext y
  show k0_pay1 (F := Ideal) (k0_pay4 (F := Ideal) (iblk m c 0 t) (iblk m c 1 t) (iblk m c 2 t) (iblk m c 3 t)) y
      = output3 (V m c main_v1) (V m c main_v3) (V m c main_v5) (V m c main_v6) (((cfg0.win 4).blk t).view.emb y)
  have hy0 : (y 0).val < 1 := (y 0).isLt
  obtain ⟨-, -, -, -, -, -, -, -, -, -, -, -, e40, e41, e42, -⟩ := idx_facts t
  refine outputBlock_at (iblk m c 0 t) (iblk m c 1 t) (iblk m c 2 t) (iblk m c 3 t) (V m c main_v1) (V m c main_v3)
    (V m c main_v5) (V m c main_v6) (grpOf t) (win0_5.index t (1 : Fin 3) * 256) (tile_le t) (read_q m c t) (read_k m c t)
    (read_v m c t) (read_mask m c t) y (((cfg0.win 4).blk t).view.emb y) ?_ ?_ ?_
  · show win0_4.index t (0 : Fin 3) * 1 + 1 * (y 0).val = win0_5.index t (0 : Fin 3); omega
  · show win0_4.index t (1 : Fin 3) * 256 + 1 * (y 1).val = win0_5.index t (1 : Fin 3) * 256 + (y 1).val; omega
  · show win0_4.index t (2 : Fin 3) * 64 + 1 * (y 2).val = (y 2).val; omega

/-! ## The blocks tile the arrays -/

theorem mem_blk5 (t : Fin cfg0.N) (i : S32x2048x2048.Idx) :
    i ∈ ((cfg0.win 5).blk t).view.set ↔ ∀ a : Fin 3, win0_5.index t a * S1x256x2048.size a ≤ (i a).val
      ∧ (i a).val < win0_5.index t a * S1x256x2048.size a + S1x256x2048.size a := by
  show i ∈ ((View.whole main_v7_1).slice (win0_5.rect t)).set ↔ _
  rw [View.set_slice_whole, Rect.mem_set_unit]
  exact Iff.rfl

theorem mem_blk4 (t : Fin cfg0.N) (i : S32x2048x64.Idx) :
    i ∈ ((cfg0.win 4).blk t).view.set ↔ ∀ a : Fin 3, win0_4.index t a * S1x256x64.size a ≤ (i a).val
      ∧ (i a).val < win0_4.index t a * S1x256x64.size a + S1x256x64.size a := by
  show i ∈ ((View.whole main_v7_0).slice (win0_4.rect t)).set ↔ _
  rw [View.set_slice_whole, Rect.mem_set_unit]
  exact Iff.rfl

/-- Row `q` of group `g` is in the block of the point for `(g, q / 256)`. -/
theorem cover5 (i : S32x2048x2048.Idx) :
    ∃ t : Fin cfg0.N, (cfg0.win 5).flush t = true ∧ i ∈ ((cfg0.win 5).blk t).view.set := by
  have hi0 : (i 0).val < 32 := (i 0).isLt
  have hi1 : (i 1).val < 2048 := (i 1).isLt
  have hi2 : (i 2).val < 2048 := (i 2).isLt
  obtain ⟨t, ht⟩ := idx_onto ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 2048 ≤ (i 2).val ∧ (i 2).val < win0_5.index t (2 : Fin 3) * 2048 + 2048; omega

theorem cover4 (i : S32x2048x64.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 256, by omega⟩
  have q0 : win0_5.index t (0 : Fin 3) = (i 0).val := congrFun ht 0
  have q1 : win0_5.index t (1 : Fin 3) = (i 1).val / 256 := congrFun ht 1
  obtain ⟨-, -, -, -, -, -, -, -, -, -, -, -, e40, e41, e42, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 64 ≤ (i 2).val ∧ (i 2).val < win0_4.index t (2 : Fin 3) * 64 + 64; omega

/-! ## The arrays after the region -/

/-- The weights' array ends holding the weights of the arrays the region was launched on. -/
theorem final5 (c : Dev nD) :
    (dats m 0 c).arrAt 5 cfg0.N = weights3 (V m c main_v1) (V m c main_v3) (V m c main_v6) :=
  (dats m 0 c).arrAt_eq_of_cover 5 _ (fun t _ => flushed5_eq m c t) cover5

/-- The output's array ends holding the output. -/
theorem final4 (c : Dev nD) :
    (dats m 0 c).arrAt 4 cfg0.N = output3 (V m c main_v1) (V m c main_v3) (V m c main_v5) (V m c main_v6) :=
  (dats m 0 c).arrAt_eq_of_cover 4 _ (fun t _ => flushed4_eq m c t) cover4

end Cert.KernelIdeal.Blocks

end
-- ==== Proof.LibFoldHeads.lean ====
import Idealize.ShloMosaic.Lib.ValueIdx
import Idealize.ShloMosaic.Lib.ValueLayout
import Idealize.ShloMosaic.Lib.Pipeline.Value

/-!
# Batch and head folded into one leading axis

A [2, 16, n, c] array reshaped to [32, n, c] and back, read at an index written by its coordinates: the folded
coordinate of `(b, h)` is `b * 16 + h`, and the last two coordinates are kept (both layouts are row-major, so the
position of an entry does not change).  Also a [1, 1, n, c] array reshaped to [1, n, c].  The lemmas do not depend
on what the entries are.
-/

noncomputable section

namespace Cert.LibFoldHeads

open Idealize.ShloMosaic Idealize.ShloMosaic.ValueIdx

variable {α : Type}

/-- The folded coordinate of batch `b` and head `h`. -/
def grp (b : Fin 2) (h : Fin 16) : Fin 32 := ⟨b.val * 16 + h.val, by omega⟩

theorem grp_val (b : Fin 2) (h : Fin 16) : (grp b h).val = b.val * 16 + h.val := rfl

/-- Every folded coordinate is some `(b, h)`'s. -/
theorem exists_grp (g : Fin 32) : ∃ (b : Fin 2) (h : Fin 16), g = grp b h :=
  ⟨⟨g.val / 16, by omega⟩, ⟨g.val % 16, by omega⟩, Fin.ext (by show g.val = g.val / 16 * 16 + g.val % 16; omega)⟩

/-- Folding: entry `(b * 16 + h, q, d)` of the reshaped array is entry `(b, h, q, d)`. -/
theorem fold_at {n c : ℕ} (X : (⟨4, ![2, 16, n, c]⟩ : Shape).Idx → α)
    (hc : (⟨4, ![2, 16, n, c]⟩ : Shape).ShapeCasts ⟨3, ![32, n, c]⟩) (b : Fin 2) (h : Fin 16) (q : Fin n) (d : Fin c) :
    shapeCast ⟨3, ![32, n, c]⟩ X hc (ix3 (grp b h) q d) = X (ix4 b h q d) :=
  shapeCast_apply X hc _ _ (by rw [Shape.rowMajor_val_four, Shape.rowMajor_val_three]; rfl)

/-- Unfolding: entry `(b, h, q, d)` of the array reshaped back is entry `(b * 16 + h, q, d)`. -/
theorem unfold_at {n c : ℕ} (Y : (⟨3, ![32, n, c]⟩ : Shape).Idx → α)
    (hc : (⟨3, ![32, n, c]⟩ : Shape).ShapeCasts ⟨4, ![2, 16, n, c]⟩) (b : Fin 2) (h : Fin 16) (q : Fin n) (d : Fin c) :
    shapeCast ⟨4, ![2, 16, n, c]⟩ Y hc (ix4 b h q d) = Y (ix3 (grp b h) q d) :=
  shapeCast_apply Y hc _ _ (by rw [Shape.rowMajor_val_three, Shape.rowMajor_val_four]; rfl)

/-- Two leading unit axes folded into one: entry `(u, q, k)` is entry `(0, 0, q, k)`. -/
theorem unit_fold_at {n c : ℕ} (X : (⟨4, ![1, 1, n, c]⟩ : Shape).Idx → α)
    (hc : (⟨4, ![1, 1, n, c]⟩ : Shape).ShapeCasts ⟨3, ![1, n, c]⟩) (u : Fin 1) (q : Fin n) (k : Fin c) :
    shapeCast ⟨3, ![1, n, c]⟩ X hc (ix3 u q k) = X (ix4 (0 : Fin 1) (0 : Fin 1) q k) :=
  shapeCast_apply X hc _ _ (by
    have hu : u.val = 0 := by omega
    rw [Shape.rowMajor_val_four, Shape.rowMajor_val_three]
    show ((0 * 1 + 0) * n + q.val) * c + k.val = (u.val * n + q.val) * c + k.val
    simp only [hu, Nat.zero_mul, Nat.zero_add, Nat.mul_one])

end Cert.LibFoldHeads

end
-- ==== Proof.AttnArrays.lean ====
/-
  The attention weights and output as functions of the four-axis arrays (batch, head, position, feature), and
  their agreement with the three-axis form in which batch and head are folded into one leading axis: folding the
  inputs, computing group by group, and unfolding the result gives the same entries, because a group's row of
  scores only reads that group's queries and keys and the shared mask.
-/
import proofs.«149328_j29686813949977_2_alg».proof.Proof.AttnSpec
import proofs.«149328_j29686813949977_2_alg».proof.Proof.LibFoldHeads

noncomputable section

open scoped BigOperators
open Idealize.ShloMosaic Idealize.ShloMosaic.ValueIdx Cert.LibFoldHeads

namespace Cert.Attn

/-- Row `(b, h, q)` of scores. -/
def scores4 (Q K : (⟨4, ![2, 16, 2048, 64]⟩ : Shape).Idx → EReal) (Mk : (⟨4, ![1, 1, 2048, 2048]⟩ : Shape).Idx → BitVec 32)
    (b : Fin 2) (h : Fin 16) (q : Fin 2048) (k : Fin 2048) : EReal :=
  score (Mk (ix4 (0 : Fin 1) (0 : Fin 1) q k)) (∑ d : Fin 64, Q (ix4 b h q d) * K (ix4 b h k d))

/-- The attention weights. -/
def weights4 (Q K : (⟨4, ![2, 16, 2048, 64]⟩ : Shape).Idx → EReal) (Mk : (⟨4, ![1, 1, 2048, 2048]⟩ : Shape).Idx → BitVec 32) :
    (⟨4, ![2, 16, 2048, 2048]⟩ : Shape).Idx → EReal :=
  fun i => softmax (scores4 Q K Mk (i 0) (i 1) (i 2)) (i 3)

/-- The attention output. -/
def output4 (Q K V : (⟨4, ![2, 16, 2048, 64]⟩ : Shape).Idx → EReal) (Mk : (⟨4, ![1, 1, 2048, 2048]⟩ : Shape).Idx → BitVec 32) :
    (⟨4, ![2, 16, 2048, 64]⟩ : Shape).Idx → EReal :=
  fun i => ∑ k : Fin 2048, softmax (scores4 Q K Mk (i 0) (i 1) (i 2)) k * V (ix4 (i 0) (i 1) k (i 3))

section Fold
variable (Q K V : (⟨4, ![2, 16, 2048, 64]⟩ : Shape).Idx → EReal) (Mk : (⟨4, ![1, 1, 2048, 2048]⟩ : Shape).Idx → BitVec 32)
  (hq : (⟨4, ![2, 16, 2048, 64]⟩ : Shape).ShapeCasts ⟨3, ![32, 2048, 64]⟩)
  (hm : (⟨4, ![1, 1, 2048, 2048]⟩ : Shape).ShapeCasts ⟨3, ![1, 2048, 2048]⟩)

/-- A folded group's row of scores is the row of its batch and head. -/
theorem scores3_fold (b : Fin 2) (h : Fin 16) (q : Fin 2048) :
    scores3 (shapeCast ⟨3, ![32, 2048, 64]⟩ Q hq) (shapeCast ⟨3, ![32, 2048, 64]⟩ K hq) (shapeCast ⟨3, ![1, 2048, 2048]⟩ Mk hm)
      (grp b h) q = scores4 Q K Mk b h q := by
  funext k
  unfold scores3 scores4
  rw [unit_fold_at]
  refine congrArg _ (Finset.sum_congr rfl fun d _ => ?_)
  rw [fold_at, fold_at]

/-- The folded weights, unfolded, are the weights. -/
theorem weights3_unfold (hw : (⟨3, ![32, 2048, 2048]⟩ : Shape).ShapeCasts ⟨4, ![2, 16, 2048, 2048]⟩) :
    shapeCast ⟨4, ![2, 16, 2048, 2048]⟩
        (weights3 (shapeCast ⟨3, ![32, 2048, 64]⟩ Q hq) (shapeCast ⟨3, ![32, 2048, 64]⟩ K hq) (shapeCast ⟨3, ![1, 2048, 2048]⟩ Mk hm)) hw
      = weights4 Q K Mk := by
  funext i
  obtain ⟨b, h, q, k, rfl⟩ : ∃ (b : Fin 2) (h : Fin 16) (q k : Fin 2048), i = ix4 b h q k := ⟨i 0, i 1, i 2, i 3, eq_ix4 i⟩
  rw [unfold_at, weights3_at, scores3_fold Q K Mk hq hm b h q]
  exact rfl

/-- The folded output, unfolded, is the output. -/
theorem output3_unfold (ho : (⟨3, ![32, 2048, 64]⟩ : Shape).ShapeCasts ⟨4, ![2, 16, 2048, 64]⟩) :
    shapeCast ⟨4, ![2, 16, 2048, 64]⟩
        (output3 (shapeCast ⟨3, ![32, 2048, 64]⟩ Q hq) (shapeCast ⟨3, ![32, 2048, 64]⟩ K hq) (shapeCast ⟨3, ![32, 2048, 64]⟩ V hq)
          (shapeCast ⟨3, ![1, 2048, 2048]⟩ Mk hm)) ho
      = output4 Q K V Mk := by
  funext i
  obtain ⟨b, h, q, d, rfl⟩ : ∃ (b : Fin 2) (h : Fin 16) (q : Fin 2048) (d : Fin 64), i = ix4 b h q d := ⟨i 0, i 1, i 2, i 3, eq_ix4 i⟩
  rw [unfold_at, output3_at, scores3_fold]
  exact Finset.sum_congr rfl fun k _ => congrArg₂ (· * ·) rfl (fold_at V hq b h k d)

end Fold

end Cert.Attn

end
-- ==== Proof.KernelHost.lean ====
/-
  The host operations around the region, and the kernel's run read back.

  Before the region the program folds batch and head of the queries, keys and values into one leading axis (and
  changes their float format, which at the ideal instance changes nothing) and drops one unit axis of the mask;
  after it, it unfolds the leading axis of the two results.  So each result is the three-axis attention function
  of the folded arguments, unfolded: the four-axis attention function of the arguments themselves.
-/
import proofs.«149328_j29686813949977_2_alg».proof.Proof.KernelBlocks
import proofs.«149328_j29686813949977_2_alg».proof.Proof.AttnArrays
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem Idealize.ShloMosaic.StableHlo

namespace Cert.KernelIdeal.HostSide

open Cert.KernelIdeal Cert.KernelIdeal.Gen Cert.Attn

variable (m : (ℓ : Loc nD τ sig) → Buf (Elt Ideal) ℓ) (ρ : Dev nD → PrngReg)

/-! ## The arrays the region is launched on -/

/-- The queries, folded. -/
theorem V_q (c : Dev nD) : (V m c main_v1 : S32x2048x64.Idx → EReal)
    = shapeCast S32x2048x64 (m ((c : Thread nD τ).loc main_arg0)) Facts₀.shapeCasts_S2x16x2048x64_S32x2048x64 := by
  show StableHlo.after hostOps0 (fun b => m (c, b)) (Proc.devRef .tc main_v1) = _
  after_results
  rfl

/-- The keys, folded. -/
theorem V_k (c : Dev nD) : (V m c main_v3 : S32x2048x64.Idx → EReal)
    = shapeCast S32x2048x64 (m ((c : Thread nD τ).loc main_arg1)) Facts₀.shapeCasts_S2x16x2048x64_S32x2048x64 := by
  show StableHlo.after hostOps0 (fun b => m (c, b)) (Proc.devRef .tc main_v3) = _
  after_results
  rfl

/-- The values, folded. -/
theorem V_v (c : Dev nD) : (V m c main_v5 : S32x2048x64.Idx → EReal)
    = shapeCast S32x2048x64 (m ((c : Thread nD τ).loc main_arg2)) Facts₀.shapeCasts_S2x16x2048x64_S32x2048x64 := by
  show StableHlo.after hostOps0 (fun b => m (c, b)) (Proc.devRef .tc main_v5) = _
  after_results
  rfl

/-- The mask, one unit axis dropped. -/
theorem V_mask (c : Dev nD) : (V m c main_v6 : S1x2048x2048.Idx → BitVec 32)
    = shapeCast S1x2048x2048 (m ((c : Thread nD τ).loc main_arg3)) Facts₀.shapeCasts_S1x1x2048x2048_S1x2048x2048 := by
  show StableHlo.after hostOps0 (fun b => m (c, b)) (Proc.devRef .tc main_v6) = _
  after_results
  rfl

/-! ## The results, after the host operations that follow the region -/

/-- The weights' result: the region's array, unfolded. -/
theorem tail_weights (c : Dev nD) : Pipeline.afterTail₀ cfgs (dats m) 0 (V0 m) [hostOps1] c main_v9
    = shapeCast S2x16x2048x2048 ((dats m 0 c).arrAt 5 cfg0.N) Facts₀.shapeCasts_S32x2048x2048_S2x16x2048x2048 := by
  unfold Pipeline.afterTail₀
  show StableHlo.after hostOps1 _ (Proc.devRef .tc main_v9) = _
  after_results
  exact congrArg (fun X => shapeCast S2x16x2048x2048 X Facts₀.shapeCasts_S32x2048x2048_S2x16x2048x2048)
    (Pipeline.withArrays_arr spec0 launch0.win.arr_inj c (V0 m c) (fun w => (dats m 0 c).arrAt w cfg0.N) 5)

/-- The output's result: the region's array, unfolded. -/
theorem tail_output (c : Dev nD) : Pipeline.afterTail₀ cfgs (dats m) 0 (V0 m) [hostOps1] c main_v8
    = shapeCast S2x16x2048x64 ((dats m 0 c).arrAt 4 cfg0.N) Facts₀.shapeCasts_S32x2048x64_S2x16x2048x64 := by
  unfold Pipeline.afterTail₀
  show StableHlo.after hostOps1 _ (Proc.devRef .tc main_v8) = _
  after_results
  exact congrArg (fun X => shapeCast S2x16x2048x64 X Facts₀.shapeCasts_S32x2048x64_S2x16x2048x64)
    (Pipeline.withArrays_arr spec0 launch0.win.arr_inj c (V0 m c) (fun w => (dats m 0 c).arrAt w cfg0.N) 4)

/-- The weights' result is the attention weights of the arguments. -/
theorem weights_result (c : Dev nD) : Pipeline.afterTail₀ cfgs (dats m) 0 (V0 m) [hostOps1] c main_v9
    = weights4 (m ((c : Thread nD τ).loc main_arg0)) (m ((c : Thread nD τ).loc main_arg1)) (m ((c : Thread nD τ).loc main_arg3)) := by
  rw [tail_weights, Blocks.final5, V_q, V_k, V_mask]
  exact weights3_unfold _ _ _ _ _ _

/-- The output's result is the attention output of the arguments. -/
theorem output_result (c : Dev nD) : Pipeline.afterTail₀ cfgs (dats m) 0 (V0 m) [hostOps1] c main_v8
    = output4 (m ((c : Thread nD τ).loc main_arg0)) (m ((c : Thread nD τ).loc main_arg1)) (m ((c : Thread nD τ).loc main_arg2))
        (m ((c : Thread nD τ).loc main_arg3)) := by
  rw [tail_output, Blocks.final4, V_q, V_k, V_v, V_mask]
  exact output3_unfold _ _ _ _ _ _ _

/-! ## The run -/

/-- Every weakly fair execution of the kernel's program terminates with the two results at the attention output
    and weights of the argument arrays, and the arguments unchanged. -/
theorem run : θ_run defs (onTc (τ := τ) (main (F := Ideal))) ⟨m, fun _ => 0, ρ⟩ fun r => ∀ c : Dev nD,
      r.2.mem ((c.tc : Thread nD τ).loc main_v8)
        = output4 (m ((c : Thread nD τ).loc main_arg0)) (m ((c : Thread nD τ).loc main_arg1))
            (m ((c : Thread nD τ).loc main_arg2)) (m ((c : Thread nD τ).loc main_arg3))
      ∧ r.2.mem ((c.tc : Thread nD τ).loc main_v9)
        = weights4 (m ((c : Thread nD τ).loc main_arg0)) (m ((c : Thread nD τ).loc main_arg1))
            (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (output_result m c),
      ((h c).2 main_v9 (Pipeline.mem_restRefs_of main_v9 (by decide) (by decide))).trans (weights_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.HostSide

end
-- ==== Proof.RefValue.lean ====
/-
  The reference, read index by index, is the attention function of its arguments.

  Entry `(b, h, q, k)` of its masked scores is the masked, scaled dot product of query `(b, h, q)` with key
  `(b, h, k)` — it divides by eight where the kernel multiplies by an eighth, the same on every extended real —; the
  maximum it subtracts is the row's fold of `max` (its second `max` with the fold's own starting value changes
  nothing); the normalising sum starts from zero; and the output is the weights' sum against the values.
-/
import proofs.«149328_j29686813949977_2_alg».proof.Proof.Gen.ReferenceIdeal.Read
import proofs.«149328_j29686813949977_2_alg».proof.Proof.AttnArrays
import proofs.«149328_j29686813949977_2_alg».proof.Proof.LibRowMax

noncomputable section

open scoped BigOperators
open Idealize.ShloMosaic Idealize.ShloMosaic.ValueIdx

namespace Cert.ReferenceIdeal.RefValue

open Cert.ReferenceIdeal Cert.ReferenceIdeal.Gen Cert.ReferenceIdeal.Read Cert.Attn

variable (x0 x1 x2 : (⟨S2x16x2048x64, .f32⟩ : BufTy).Contents (Elt Ideal)) (x3 : (⟨S1x1x2048x2048, .i32⟩ : BufTy).Contents (Elt Ideal))

/-! ## The index functions of the stages, by coordinates -/

theorem idx_mask (b : Fin 2) (h : Fin 16) (q k : Fin 2048) :
    idx_main_call0_v0 (ix4 b h q k) = ix4 (0 : Fin 1) (0 : Fin 1) q k :=
  funext fun a => Fin.ext (by match a with | ⟨0, _⟩ => rfl | ⟨1, _⟩ => rfl | ⟨2, _⟩ => rfl | ⟨3, _⟩ => rfl)

theorem idx_query (b : Fin 2) (h : Fin 16) (q k : Fin 2048) (d : Fin 64) : lidx_main_v0 (ix4 b h q k) d = ix4 b h q d :=
  funext fun a => Fin.ext (by match a with | ⟨0, _⟩ => rfl | ⟨1, _⟩ => rfl | ⟨2, _⟩ => rfl | ⟨3, _⟩ => rfl)

theorem idx_key (b : Fin 2) (h : Fin 16) (q k : Fin 2048) (d : Fin 64) : ridx_main_v0 (ix4 b h q k) d = ix4 b h k d :=
  funext fun a => Fin.ext (by match a with | ⟨0, _⟩ => rfl | ⟨1, _⟩ => rfl | ⟨2, _⟩ => rfl | ⟨3, _⟩ => rfl)

theorem idx_rowmax (b : Fin 2) (h : Fin 16) (q k : Fin 2048) : idx_main_v9 (idx_main_v10 (ix4 b h q k)) = ix3 b h q :=
  funext fun a => Fin.ext (by match a with | ⟨0, _⟩ => rfl | ⟨1, _⟩ => rfl | ⟨2, _⟩ => rfl)

theorem idx_rowsum (b : Fin 2) (h : Fin 16) (q k : Fin 2048) : idx_main_v14 (idx_main_v15 (ix4 b h q k)) = ix3 b h q :=
  funext fun a => Fin.ext (by match a with | ⟨0, _⟩ => rfl | ⟨1, _⟩ => rfl | ⟨2, _⟩ => rfl)

theorem idx_summand (b : Fin 2) (h : Fin 16) (q k : Fin 2048) : idx_main_v13 (ix3 b h q) k = ix4 b h q k :=
  funext fun a => Fin.ext (by match a with | ⟨0, _⟩ => rfl | ⟨1, _⟩ => rfl | ⟨2, _⟩ => rfl | ⟨3, _⟩ => rfl)

theorem idx_weight (b : Fin 2) (h : Fin 16) (q : Fin 2048) (d : Fin 64) (k : Fin 2048) :
    lidx_main_v17 (ix4 b h q d) k = ix4 b h q k :=
  funext fun a => Fin.ext (by match a with | ⟨0, _⟩ => rfl | ⟨1, _⟩ => rfl | ⟨2, _⟩ => rfl | ⟨3, _⟩ => rfl)

theorem idx_value (b : Fin 2) (h : Fin 16) (q : Fin 2048) (d : Fin 64) (k : Fin 2048) :
    ridx_main_v17 (ix4 b h q d) k = ix4 b h k d :=
  funext fun a => Fin.ext (by match a with | ⟨0, _⟩ => rfl | ⟨1, _⟩ => rfl | ⟨2, _⟩ => rfl | ⟨3, _⟩ => rfl)

/-! ## The stages -/

/-- The masked, scaled scores. -/
theorem scores_at (b : Fin 2) (h : Fin 16) (q k : Fin 2048) :
    val_main_v5 (F := Ideal) x0 x1 x3 (ix4 b h q k) = scores4 x0 x1 x3 b h q k := by
  rw [val_main_v5_apply, val_main_call0_v0_apply, val_main_v4_apply, val_main_v3_apply, val_main_c_apply,
    val_main_call0_v1_apply, val_main_cst_0_apply, val_main_v2_apply, val_main_v0_apply, val_main_v1_apply,
    val_main_cst_apply, idx_mask]
  simp only [idx_query, idx_key]
  show Scalar.select (IntOp.cmpi .eq (x3 (ix4 (0 : Fin 1) (0 : Fin 1) q k)) 0#32) (Ideal.ofBits .f32 0xCE6E6B28#32)
      (Ideal.div (∑ d : Fin 64, x0 (ix4 b h q d) * x1 (ix4 b h k d)) (Ideal.ofBits .f32 0x41000000#32)) = _
  rw [div_eight]
  rfl

/-- The subtracted maximum is the row's. -/
theorem rowmax_at (b : Fin 2) (h : Fin 16) (q : Fin 2048) :
    val_main_v8 (F := Ideal) x0 x1 x3 (ix3 b h q) = rowMax (scores4 x0 x1 x3 b h q) := by
  have h6 : val_main_v6 (F := Ideal) x0 x1 x3 (ix3 b h q) = rowMax (scores4 x0 x1 x3 b h q) := by
    unfold val_main_v6
    refine (Cert.LibRowMax.hostMax4_at (φ := .f32) (val_main_v5 (F := Ideal) x0 x1 x3) (val_main_cst_1 (F := Ideal))
      reducesTo_S2x16x2048x2048_S2x16x2048_d3 (by decide) h_S_ b h q).trans ?_
    unfold rowMax
    exact congrArg (Cert.LibRowMax.foldMax _) (funext fun k => scores_at x0 x1 x3 b h q k)
  rw [val_main_v8_apply, val_main_v7_apply, val_main_cst_2_apply, h6]
  exact max_rowMax _

/-- The exponentials. -/
theorem expo_at (b : Fin 2) (h : Fin 16) (q k : Fin 2048) :
    val_main_v12 (F := Ideal) x0 x1 x3 (ix4 b h q k) = expo (scores4 x0 x1 x3 b h q) k := by
  rw [val_main_v12_apply, val_main_v11_apply, scores_at, val_main_v10_apply, val_main_v9_apply, idx_rowmax, rowmax_at]
  rfl

/-- The normalising sum. -/
theorem rowsum_at (b : Fin 2) (h : Fin 16) (q : Fin 2048) :
    val_main_v13 (F := Ideal) x0 x1 x3 (ix3 b h q) = ∑ k : Fin 2048, expo (scores4 x0 x1 x3 b h q) k := by
  rw [val_main_v13_apply, val_main_cst_3_apply]
  simp only [idx_summand, expo_at]
  show Ideal.ofBits .f32 0x00000000#32 + _ = _
  rw [Ideal.ofBits_zero_f32, zero_add]

/-- The weights. -/
theorem weights_at (b : Fin 2) (h : Fin 16) (q k : Fin 2048) :
    val_main_v16 (F := Ideal) x0 x1 x3 (ix4 b h q k) = softmax (scores4 x0 x1 x3 b h q) k := by
  rw [val_main_v16_apply, expo_at, val_main_v15_apply, val_main_v14_apply, idx_rowsum, rowsum_at]
  rfl

theorem weights_eq : val_main_v16 (F := Ideal) x0 x1 x3 = weights4 x0 x1 x3 := by
  funext i
  obtain ⟨b, h, q, k, rfl⟩ : ∃ (b : Fin 2) (h : Fin 16) (q k : Fin 2048), i = ix4 b h q k := ⟨i 0, i 1, i 2, i 3, eq_ix4 i⟩
  exact weights_at x0 x1 x3 b h q k

/-- The output. -/
theorem output_eq : val_main_v17 (F := Ideal) x0 x1 x2 x3 = output4 x0 x1 x2 x3 := by
  funext i
  obtain ⟨b, h, q, d, rfl⟩ : ∃ (b : Fin 2) (h : Fin 16) (q : Fin 2048) (d : Fin 64), i = ix4 b h q d := ⟨i 0, i 1, i 2, i 3, eq_ix4 i⟩
  rw [val_main_v17_apply]
  simp only [idx_weight, idx_value, weights_at]
  rfl

end Cert.ReferenceIdeal.RefValue

end
-- ==== Proof.lean ====
/-
  Masked scaled dot-product attention: a tiled kernel against the plain einsum-and-softmax reference, equal on the
  extended reals.

  For each batch `b`, head `h` and query position `q`, the row of scores is `s k = (∑ d, Q[b,h,q,d] · K[b,h,k,d]) · ⅛`,
  replaced by `-10⁹` where `mask[0,0,q,k] = 0`; the weights are `exp (s k - M) / ∑ j, exp (s j - M)` with `M` the row's
  maximum; the output is `∑ k, weights[b,h,q,k] · V[b,h,k,d]`.  The kernel folds batch and head into one axis of 32
  groups, and each of its 8 × 32 grid points computes 256 rows of one group from the whole of that group's keys and
  values, so a row is never split across points and no partial sums are combined.  The reference divides the dot
  product by 8 where the kernel multiplies by ⅛ (one function on every extended real), takes one more `max` of the
  row's maximum with the fold's own starting value (absorbed), and starts its normalising sum from zero.  Changes of
  float format are the identity here, and a matrix product into a zero accumulator is the plain sum.  None of these
  steps needs the inputs to be finite, so the precondition is not opened.

  Modules: AttnSpec (a row), AttnArrays (the arrays, folded and unfolded), KernelRow (one grid point's values at an
  entry), KernelBlocks (the blocks tile the arrays), KernelHost (the reshapes around the region and the kernel's
  run), RefValue (the reference index by index).
-/
import proofs.«149328_j29686813949977_2_alg».proof.Defs
import proofs.«149328_j29686813949977_2_alg».proof.Proof.Gen.Kernel
import proofs.«149328_j29686813949977_2_alg».proof.Proof.Gen.Kernel.Skeleton
import proofs.«149328_j29686813949977_2_alg».proof.Proof.Gen.Kernel.Launch
import proofs.«149328_j29686813949977_2_alg».proof.Proof.Gen.Kernel.Points
import proofs.«149328_j29686813949977_2_alg».proof.Proof.Gen.Kernel.Frame
import proofs.«149328_j29686813949977_2_alg».proof.Proof.Gen.KernelIdeal
import proofs.«149328_j29686813949977_2_alg».proof.Proof.Gen.KernelIdeal.Skeleton
import proofs.«149328_j29686813949977_2_alg».proof.Proof.Gen.KernelIdeal.Launch
import proofs.«149328_j29686813949977_2_alg».proof.Proof.Gen.KernelIdeal.Points
import proofs.«149328_j29686813949977_2_alg».proof.Proof.Gen.KernelIdeal.Frame
import proofs.«149328_j29686813949977_2_alg».proof.Proof.Gen.ReferenceIdeal
import proofs.«149328_j29686813949977_2_alg».proof.Proof.Gen.ReferenceIdeal.Run
import proofs.«149328_j29686813949977_2_alg».proof.Proof.Gen.ReferenceIdeal.Read
import proofs.«149328_j29686813949977_2_alg».proof.Proof.Gen.Pre_finite_inputs
import proofs.«149328_j29686813949977_2_alg».proof.Proof.KernelHost
import proofs.«149328_j29686813949977_2_alg».proof.Proof.RefValue
import Idealize.ShloMosaic.Adequacy
import Idealize.ShloMosaic.Init

noncomputable section

namespace Cert.Proof

open Idealize.ShloMosaic Idealize.ShloMosaic.TcCoe Idealize.SL.Sem

/-- The printed kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments, both programs end with the attention output and the attention
    weights of those arguments. -/
theorem algebraic : Cert.algebraic_KernelIdeal_ReferenceIdeal := by
  intro m ρ m' ρ' _ hagree
  refine ⟨_, _, Cert.KernelIdeal.HostSide.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v17_eq, Cert.ReferenceIdeal.RefValue.output_eq, (hagree c).1, (hagree c).2.1,
      (hagree c).2.2.1, (hagree c).2.2.2]
  · rw [Cert.ReferenceIdeal.Read.val_main_v16_eq, Cert.ReferenceIdeal.RefValue.weights_eq, (hagree c).1, (hagree c).2.1,
      (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
